-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S8192x16384 : Shape := ⟨2, ![8192, 16384]⟩
abbrev S512x4096 : Shape := ⟨2, ![512, 4096]⟩
abbrev S256x4096 : Shape := ⟨2, ![256, 4096]⟩
abbrev S256 : Shape := ⟨1, ![256]⟩
abbrev S512x256 : Shape := ⟨2, ![512, 256]⟩
abbrev S256x1 : Shape := ⟨2, ![256, 1]⟩
abbrev S1x256 : Shape := ⟨2, ![1, 256]⟩
abbrev S4x2048x16384 : Shape := ⟨3, ![4, 2048, 16384]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S8192x16384, .f32⟩
  | .hbm, ⟨7, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S256x4096, .i32⟩
  | .local _ .vmem, ⟨3, _⟩ => ⟨S256x4096, .i32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x16384_S4x2048x16384 : S8192x16384.ShapeCasts S4x2048x16384
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x16384.size a
  hwx0_4 : ∀ i : grid0.Coords, EltTy.bits .f32 = 32 ∨ (Rect.block (s := S8192x16384) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The quantised linear layer as one function of its four arrays.

  The weight is stored as integers `q[n, k]` with one scale `s[n]` per output channel `n`; the layer's weight is
  `w[n, k] = q[n, k] · s[n]`, the integer read as the real number it denotes. For a token with features `x[k]` the
  layer's output on channel `n` is `(Σ_k x[k] · w[n, k]) + b[n]`.

  Two arrangements of the tokens occur. `rows` indexes them by one coordinate `r < 8192` (a matrix of tokens against
  channels); `tokens` indexes them by a batch coordinate `a < 4` and a position `b < 2048`. The second is the first
  re-laid: token `(a, b)` is row `a · 2048 + b`, both for the features read and for the outputs written
  (`reshape_rows`). Nothing here asks the entries to be finite: the two sides are the same sum of the same products.
-/
import Idealize.ShloMosaic.Lib.ValueIdx
import Idealize.ShloMosaic.Lib.Pipeline.Value

noncomputable section

open scoped BigOperators

namespace Cert.QLinear

open Idealize.ShloMosaic Idealize.ShloMosaic.ValueIdx

/-- The dequantised weight at channel `n`, feature `k`: the stored integer, as a real, times the channel's scale. -/
def weight (q : (⟨2, ![16384, 4096]⟩ : Shape).Idx → BitVec 32) (s : (⟨1, ![16384]⟩ : Shape).Idx → EReal)
    (n : Fin 16384) (k : Fin 4096) : EReal :=
  FloatOps.sitofp (F := Ideal) .f32 (q (ix2 n k)) * s (ix1 n)

/-- The layer on a matrix of tokens: row `r`, channel `n`. -/
def rows (x : (⟨2, ![8192, 4096]⟩ : Shape).Idx → EReal) (q : (⟨2, ![16384, 4096]⟩ : Shape).Idx → BitVec 32)
    (s b : (⟨1, ![16384]⟩ : Shape).Idx → EReal) : (⟨2, ![8192, 16384]⟩ : Shape).Idx → EReal :=
  fun j => (∑ k : Fin 4096, x (ix2 (n0 := 8192) (n1 := 4096) (j 0) k) * weight q s (j 1) k) + b (ix1 (n := 16384) (j 1))

/-- The layer on tokens indexed by batch and position: token `(a, p)`, channel `n`. -/
def tokens (x : (⟨3, ![4, 2048, 4096]⟩ : Shape).Idx → EReal) (q : (⟨2, ![16384, 4096]⟩ : Shape).Idx → BitVec 32)
    (s b : (⟨1, ![16384]⟩ : Shape).Idx → EReal) : (⟨3, ![4, 2048, 16384]⟩ : Shape).Idx → EReal :=
  fun i => (∑ k : Fin 4096, x (ix3 (n0 := 4) (n1 := 2048) (n2 := 4096) (i 0) (i 1) k) * weight q s (i 2) k)
    + b (ix1 (n := 16384) (i 2))

/-- The matrix result at row `r`, channel `n`. -/
theorem rows_apply (x : (⟨2, ![8192, 4096]⟩ : Shape).Idx → EReal) (q : (⟨2, ![16384, 4096]⟩ : Shape).Idx → BitVec 32)
    (s b : (⟨1, ![16384]⟩ : Shape).Idx → EReal) (r : Fin 8192) (n : Fin 16384) :
    rows x q s b (ix2 r n) = (∑ k : Fin 4096, x (ix2 r k) * weight q s n k) + b (ix1 n) := rfl

/-- The token result at batch `a`, position `p`, channel `n`. -/
theorem tokens_apply (x : (⟨3, ![4, 2048, 4096]⟩ : Shape).Idx → EReal) (q : (⟨2, ![16384, 4096]⟩ : Shape).Idx → BitVec 32)
    (s b : (⟨1, ![16384]⟩ : Shape).Idx → EReal) (a : Fin 4) (p : Fin 2048) (n : Fin 16384) :
    tokens x q s b (ix3 a p n) = (∑ k : Fin 4096, x (ix3 a p k) * weight q s n k) + b (ix1 n) := rfl

/-- Token `(a, p)` is row `a · 2048 + p`. -/
def rowOf (a : Fin 4) (p : Fin 2048) : Fin 8192 := ⟨a.val * 2048 + p.val, by have := a.isLt; have := p.isLt; omega⟩

/-- The features re-laid as a matrix of tokens read, at row `a · 2048 + p`, token `(a, p)`'s. -/
theorem reshape_features (x : (⟨3, ![4, 2048, 4096]⟩ : Shape).Idx → EReal)
    (h : (⟨3, ![4, 2048, 4096]⟩ : Shape).ShapeCasts ⟨2, ![8192, 4096]⟩) (a : Fin 4) (p : Fin 2048) (k : Fin 4096) :
    shapeCast ⟨2, ![8192, 4096]⟩ x h (ix2 (rowOf a p) k) = x (ix3 a p k) :=
  shapeCast_apply x h _ _ (by
    rw [Shape.rowMajor_val_two, Shape.rowMajor_val_three]
    rfl)

/-- The matrix result re-laid by batch and position is the layer on the tokens so indexed: the output at `(a, p, n)`
    is the matrix's at row `a · 2048 + p`, whose features are token `(a, p)`'s. -/
theorem reshape_rows (x : (⟨3, ![4, 2048, 4096]⟩ : Shape).Idx → EReal) (q : (⟨2, ![16384, 4096]⟩ : Shape).Idx → BitVec 32)
    (s b : (⟨1, ![16384]⟩ : Shape).Idx → EReal)
    (h₁ : (⟨3, ![4, 2048, 4096]⟩ : Shape).ShapeCasts ⟨2, ![8192, 4096]⟩)
    (h₂ : (⟨2, ![8192, 16384]⟩ : Shape).ShapeCasts ⟨3, ![4, 2048, 16384]⟩) :
    shapeCast ⟨3, ![4, 2048, 16384]⟩ (rows (shapeCast ⟨2, ![8192, 4096]⟩ x h₁) q s b) h₂ = tokens x q s b := by
  funext i
  obtain ⟨a, p, n, rfl⟩ : ∃ (a : Fin 4) (p : Fin 2048) (n : Fin 16384), i = ix3 a p n := ⟨i 0, i 1, i 2, eq_ix3 i⟩
  rw [shapeCast_apply _ h₂ (ix3 a p n) (ix2 (rowOf a p) n) (by
    rw [Shape.rowMajor_val_two, Shape.rowMajor_val_three]
    rfl)]
  rw [rows_apply, tokens_apply]
  simp only [reshape_features]

end Cert.QLinear

end
-- ==== Proof.RefTokens.lean ====
/-
  The reference program computes the layer on tokens indexed by batch and position.

  Its operations, read at an output index `(a, p, n)`: the stored integers are converted to reals; the channel scales
  are re-laid as a column and repeated along the feature axis, so that entry `(n, k)` of that array is `s[n]`; their
  entrywise product is the dequantised weight `w[n, k]`; the contraction over the feature axis of the input against
  it is `Σ_k x[a, p, k] · w[n, k]`; the bias, re-laid and repeated over batch and position, is `b[n]` at the index;
  and the last operation adds the two. That is `Cert.QLinear.tokens` entry by entry.
-/
import proofs.«126928_j283467842173_1_alg».proof.Proof.Gen.ReferenceIdeal.Read
import proofs.«126928_j283467842173_1_alg».proof.Proof.Spec

noncomputable section

open scoped BigOperators

namespace Cert.ReferenceIdeal.RefValue

open Cert.ReferenceIdeal Cert.ReferenceIdeal.Read Idealize.ShloMosaic Idealize.ShloMosaic.ValueIdx

/-- The contraction reads the input at the output's batch and position and the summed feature. -/
theorem lhs_index (a : Fin 4) (p : Fin 2048) (n : Fin 16384) (k : Fin 4096) :
    lidx_main_v4 (ix3 a p n) k = ix3 a p k :=
  funext fun d => Fin.ext (by match d with | ⟨0, _⟩ => rfl | ⟨1, _⟩ => rfl | ⟨2, _⟩ => rfl)

/-- It reads the weight at the output's channel and the summed feature. -/
theorem rhs_index (a : Fin 4) (p : Fin 2048) (n : Fin 16384) (k : Fin 4096) :
    ridx_main_v4 (ix3 a p n) k = ix2 n k :=
  funext fun d => Fin.ext (by match d with | ⟨0, _⟩ => rfl | ⟨1, _⟩ => rfl)

/-- The repeated column of scales, at the weight's index, is the channel's scale. -/
theorem scale_index (n : Fin 16384) (k : Fin 4096) : idx_main_v1 (idx_main_v2 (ix2 n k)) = ix1 n :=
  funext fun d => Fin.ext (by match d with | ⟨0, _⟩ => rfl)

/-- The repeated bias, at the output's index, is the output channel's bias. -/
theorem bias_index (a : Fin 4) (p : Fin 2048) (n : Fin 16384) : idx_main_v5 (idx_main_v6 (ix3 a p n)) = ix1 n :=
  funext fun d => Fin.ext (by match d with | ⟨0, _⟩ => rfl)

/-- The reference's result, as a function of the four argument arrays, is the layer on the tokens. -/
theorem reference_eq_tokens (x0 : (⟨S4x2048x4096, .f32⟩ : BufTy).Contents (Elt Ideal))
    (x1 : (⟨S16384x4096, .i32⟩ : BufTy).Contents (Elt Ideal)) (x2 x3 : (⟨S16384, .f32⟩ : BufTy).Contents (Elt Ideal)) :
    val_main_v7 (F := Ideal) x0 x1 x2 x3 = Cert.QLinear.tokens x0 x1 x2 x3 := by
  funext i
  obtain ⟨a, p, n, rfl⟩ : ∃ (a : Fin 4) (p : Fin 2048) (n : Fin 16384), i = ix3 a p n := ⟨i 0, i 1, i 2, eq_ix3 i⟩
  rw [val_main_v7_apply, val_main_v4_apply, val_main_v6_apply, val_main_v5_apply, bias_index, Cert.QLinear.tokens_apply]
  refine congrArg (· + x3 (ix1 n)) (Finset.sum_congr rfl fun k _ => ?_)
  rw [lhs_index, rhs_index, val_main_v3_apply, val_main_v0_apply, val_main_v2_apply, val_main_v1_apply, scale_index]
  rfl

end Cert.ReferenceIdeal.RefValue

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Payload.lean ====
/-
  What the kernel body computes for one output block, entry by entry.

  The body holds a block of 512 tokens (rows) with all 4096 features, a block of 256 channels of stored integers with
  all 4096 features, and those 256 channels' scales and biases. It converts the integers to reals, multiplies row `q`
  of that block by the scale of channel `q` (the scales re-laid as a column and repeated along the feature axis),
  contracts the token block against the result over the feature axis, starting from zero, and adds the bias of channel
  `q` to every row (the biases re-laid as a row and repeated over the tokens). So entry `(p, q)` of what it stores is
  `(Σ_k x[p, k] · (q[q, k] · s[q])) + b[q]`.
-/
import proofs.«126928_j283467842173_1_alg».proof.Proof.Gen.KernelIdeal.Skeleton
import proofs.«126928_j283467842173_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The token operand of the contraction is read at the output's row … -/
theorem lhs_row (j : S512x256.Idx) (k : dot_S512x4096_S256x4096_S512x256_1_1_0_0_n_n.contr.Idx) :
    (dot_S512x4096_S256x4096_S512x256_1_1_0_0_n_n.lhsIdx j k 0).val = (j 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

/-- … and the weight operand at the output's column: a channel of the block. -/
theorem rhs_row (j : S512x256.Idx) (k : dot_S512x4096_S256x4096_S512x256_1_1_0_0_n_n.contr.Idx) :
    (dot_S512x4096_S256x4096_S512x256_1_1_0_0_n_n.rhsIdx j k 0).val = (j 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- The contraction from a zero accumulator, at token `p` and channel `q` of the block: the sum over the features of
    the token's feature times the channel's weight. -/
theorem contraction_apply (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ k : Fin 4096, l (ix2 p k) * r (ix2 q k) := by
  show FloatOps.matmul dot_S512x4096_S256x4096_S512x256_1_1_0_0_n_n none l r (constant (F := Ideal) S512x256 .f32 0x00000000#32) (ix2 p q) = _
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q)
      ((contrEquiv1 dot_S512x4096_S256x4096_S512x256_1_1_0_0_n_n 4096 rfl rfl).symm k) = ix2 p k :=
    funext fun a => Fin.ext (by
      match a with
      | ⟨0, _⟩ => exact lhs_row _ _
      | ⟨1, _⟩ => exact (dot_S512x4096_S256x4096_S512x256_1_1_0_0_n_n.lhsIdx_val_of_single rfl _ _).trans hk)
  have er : dot_S512x4096_S256x4096_S512x256_1_1_0_0_n_n.rhsIdx (ix2 p q)
      ((contrEquiv1 dot_S512x4096_S256x4096_S512x256_1_1_0_0_n_n 4096 rfl rfl).symm k) = ix2 q k :=
    funext fun a => Fin.ext (by
      match a with
      | ⟨0, _⟩ => exact rhs_row _ _
      | ⟨1, _⟩ => exact (dot_S512x4096_S256x4096_S512x256_1_1_0_0_n_n.rhsIdx_val_of_single rfl _ _).trans hk)
  rw [el, er]

/-- The body's stored value at token `p`, channel `q` of the block. -/
theorem payload_apply (x0 : Vec Ideal S512x4096 .bf16) (x1 : Vec Ideal S256x4096 .i32) (x2 x3 : Vec Ideal S256 .f32)
    (p : Fin 512) (q : Fin 256) :
    k0_pay1 (F := Ideal) x0 x1 x2 x3 (ix2 p q)
      = (∑ k : Fin 4096, x0 (ix2 p k) * (FloatOps.sitofp (F := Ideal) .f32 (x1 (ix2 q k)) * x2 (ix1 q))) + x3 (ix1 q) := by
  unfold k0_pay1
  rw [addf_apply, contraction_apply, broadcastTo_1b_ab_apply, shapeCast_a_1a_apply]
  refine congrArg (· + x3 (ix1 q)) (Finset.sum_congr rfl fun k _ => ?_)
  rw [shapeCast_self, truncf_apply, mulf_apply, sitofp_apply, Cert.Lib.Column.broadcastTo_shapeCast_column_apply]

end Cert.KernelIdeal.Body

end
-- ==== Proof.Blocks.lean ====
/-
  From the blocks the grid points write to the whole output matrix.

  The grid has 16 × 64 points; point `t` has row-block `t / 64` and channel-block `t % 64`. At that point the body sees
  tokens `512·(t/64) … 512·(t/64)+511` with all their features, channels `256·(t%64) … 256·(t%64)+255` of the stored
  integers with all their features, and those channels' scales and biases; it writes rows `512·(t/64)+p`, channels
  `256·(t%64)+q` of the output. Entry `(p, q)` of what it writes is the layer's value at that row and channel
  (`block_entry`), so every point writes back its block of ONE matrix, `Cert.QLinear.rows` of the arrays the region
  finds; and since the 1024 blocks tile the 8192 × 16384 matrix (row `r` and channel `n` lie in the block of point
  `64·(r/512) + n/256`), the output array ends holding that matrix.
-/
import proofs.«126928_j283467842173_1_alg».proof.Proof.Gen.KernelIdeal.Frame
import proofs.«126928_j283467842173_1_alg».proof.Proof.Payload
import proofs.«126928_j283467842173_1_alg».proof.Proof.Spec
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- Which block of each array point `t` works on: the token block `t / 64` (all features), the channel block `t % 64`
    of the integers (all features), of the scales and of the biases, and block `(t / 64, t % 64)` of the output. -/
theorem block_indices : ∀ t : Fin cfg0.N,
    win0_0.index t (0 : Fin 2) = t.val / 64 ∧ win0_0.index t (1 : Fin 2) = 0
    ∧ win0_1.index t (0 : Fin 2) = t.val % 64 ∧ win0_1.index t (1 : Fin 2) = 0
    ∧ win0_2.index t (0 : Fin 1) = t.val % 64
    ∧ win0_3.index t (0 : Fin 1) = t.val % 64
    ∧ win0_4.index t (0 : Fin 2) = t.val / 64 ∧ win0_4.index t (1 : Fin 2) = t.val % 64 :=
  (by decide +kernel : ∀ t : Fin grid0.N, _)

/-- One entry of a point's block: if the body's token block, integer block, scales and biases are rows `r`, channels
    `n` of four arrays, its stored value at `(p, q)` is the layer's value at row `r`, channel `n` of those arrays. -/
theorem block_entry (X : S8192x4096.Idx → EReal) (Q : S16384x4096.Idx → BitVec 32) (S B : S16384.Idx → EReal)
    (x0 : Vec Ideal S512x4096 .bf16) (x1 : Vec Ideal S256x4096 .i32) (x2 x3 : Vec Ideal S256 .f32)
    (r : Fin 8192) (n : Fin 16384) (p : Fin 512) (q : Fin 256)
    (h0 : ∀ k : Fin 4096, x0 (ix2 p k) = X (ix2 r k)) (h1 : ∀ k : Fin 4096, x1 (ix2 q k) = Q (ix2 n k))
    (h2 : x2 (ix1 q) = S (ix1 n)) (h3 : x3 (ix1 q) = B (ix1 n)) :
    k0_pay1 (F := Ideal) x0 x1 x2 x3 (ix2 p q) = Cert.QLinear.rows X Q S B (ix2 r n) := by
  rw [Body.payload_apply, Cert.QLinear.rows_apply, h2, h3]
  unfold Cert.QLinear.weight
  simp only [h0, h1]

/-- WHAT POINT `t` WRITES BACK is its block of the layer's matrix on the arrays as the region finds them. -/
theorem flushed_eq (c : Dev nD) (t : Fin cfg0.N) :
    (dats m 0 c).flushed 4 t = ((cfg0.win 4).blk t).view.read (Elt Ideal)
      (Cert.QLinear.rows (V m c main_v1) (V m c main_arg1) (V m c main_arg2) (V m c main_arg3)) := by
  show (cfg0.win 4).cut (grid0.coords t) ((dats m 0 c).after 4 t) = _
  rw [after0_4]
  unfold out0_4
  rw [View.canon_unit_zero zero_offsets₂]
  simp only [View.ld_unit_zero (S := S512x4096) zero_offsets₂, View.ld_unit_zero (S := S256x4096) zero_offsets₂,
    View.ld_unit_zero (S := S256) zero_offsets₁]
  obtain ⟨e00, e01, e10, e11, e2, e3, e40, e41⟩ := block_indices t
  have ht : t.val < 1024 := lt_of_lt_of_eq t.isLt N_0
  funext j
  obtain ⟨p, q, rfl⟩ : ∃ (p : Fin 512) (q : Fin 256), j = ix2 p q := ⟨j 0, j 1, eq_ix2 j⟩
  have hp : p.val < 512 := p.isLt
  have hq : q.val < 256 := q.isLt
  have hr : t.val / 64 * 512 + p.val < 8192 := by omega
  have hn : t.val % 64 * 256 + q.val < 16384 := by omega
  -- where entry (p, q) of the point's output block sits in the output matrix
  have hout : ((cfg0.win 4).blk t).view.emb (ix2 p q)
      = (ix2 (⟨t.val / 64 * 512 + p.val, hr⟩ : Fin 8192) (⟨t.val % 64 * 256 + q.val, hn⟩ : Fin 16384) : S8192x16384.Idx) := by
    funext a; apply Fin.ext
    match a with
    | ⟨0, _⟩ => show win0_4.index t (0 : Fin 2) * 512 + 1 * p.val = t.val / 64 * 512 + p.val; omega
    | ⟨1, _⟩ => show win0_4.index t (1 : Fin 2) * 256 + 1 * q.val = t.val % 64 * 256 + q.val; omega
  show k0_pay1 (F := Ideal) (iblk m c 0 t) (iblk m c 1 t) (iblk m c 2 t) (iblk m c 3 t) (ix2 p q)
    = Cert.QLinear.rows (V m c main_v1) (V m c main_arg1) (V m c main_arg2) (V m c main_arg3)
        (((cfg0.win 4).blk t).view.emb (ix2 p q))
  refine (block_entry (V m c main_v1) (V m c main_arg1) (V m c main_arg2) (V m c main_arg3)
    (iblk m c 0 t) (iblk m c 1 t) (iblk m c 2 t) (iblk m c 3 t)
    ⟨t.val / 64 * 512 + p.val, hr⟩ ⟨t.val % 64 * 256 + q.val, hn⟩ p q ?_ ?_ ?_ ?_).trans
    (congrArg (Cert.QLinear.rows (V m c main_v1) (V m c main_arg1) (V m c main_arg2) (V m c main_arg3)) hout.symm)
  · -- the token block: rows of the token matrix, every feature
    intro k
    show V m c main_v1 (((cfg0.win 0).blk t).view.emb (ix2 p k)) = V m c main_v1 (ix2 _ k)
    refine congrArg (V m c main_v1) (funext fun a => Fin.ext ?_)
    match a with
    | ⟨0, _⟩ => show win0_0.index t (0 : Fin 2) * 512 + 1 * p.val = t.val / 64 * 512 + p.val; omega
    | ⟨1, _⟩ => show win0_0.index t (1 : Fin 2) * 4096 + 1 * k.val = k.val; omega
  · -- the integer block: channels of the stored weight, every feature
    intro k
    show V m c main_arg1 (((cfg0.win 1).blk t).view.emb (ix2 q k)) = V m c main_arg1 (ix2 _ k)
    refine congrArg (V m c main_arg1) (funext fun a => Fin.ext ?_)
    match a with
    | ⟨0, _⟩ => show win0_1.index t (0 : Fin 2) * 256 + 1 * q.val = t.val % 64 * 256 + q.val; omega
    | ⟨1, _⟩ => show win0_1.index t (1 : Fin 2) * 4096 + 1 * k.val = k.val; omega
  · -- the scales of those channels
    show V m c main_arg2 (((cfg0.win 2).blk t).view.emb (ix1 q)) = V m c main_arg2 (ix1 _)
    refine congrArg (V m c main_arg2) (funext fun a => Fin.ext ?_)
    match a with
    | ⟨0, _⟩ => show win0_2.index t (0 : Fin 1) * 256 + 1 * q.val = t.val % 64 * 256 + q.val; omega
  · -- and their biases
    show V m c main_arg3 (((cfg0.win 3).blk t).view.emb (ix1 q)) = V m c main_arg3 (ix1 _)
    refine congrArg (V m c main_arg3) (funext fun a => Fin.ext ?_)
    match a with
    | ⟨0, _⟩ => show win0_3.index t (0 : Fin 1) * 256 + 1 * q.val = t.val % 64 * 256 + q.val; omega

/-- A row and a channel lie in point `t`'s output block iff each is in the block's range. -/
theorem mem_block (t : Fin cfg0.N) (i : S8192x16384.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- The blocks tile the matrix: row `r`, channel `n` is in the block of point `64·(r/512) + n/256`. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have htN : (i 0).val / 512 * 64 + (i 1).val / 256 < cfg0.N := lt_of_lt_of_eq (by omega) N_0.symm
  refine ⟨⟨(i 0).val / 512 * 64 + (i 1).val / 256, htN⟩, flush0_4 _, ?_⟩
  obtain ⟨-, -, -, -, -, -, e40, e41⟩ := block_indices ⟨(i 0).val / 512 * 64 + (i 1).val / 256, htN⟩
  rw [mem_block]
  intro a
  match a with
  | ⟨0, _⟩ =>
    show win0_4.index ⟨(i 0).val / 512 * 64 + (i 1).val / 256, htN⟩ (0 : Fin 2) * 512 ≤ (i 0).val
      ∧ (i 0).val < win0_4.index ⟨(i 0).val / 512 * 64 + (i 1).val / 256, htN⟩ (0 : Fin 2) * 512 + 512
    rw [e40]
    show ((i 0).val / 512 * 64 + (i 1).val / 256) / 64 * 512 ≤ (i 0).val
      ∧ (i 0).val < ((i 0).val / 512 * 64 + (i 1).val / 256) / 64 * 512 + 512
    omega
  | ⟨1, _⟩ =>
    show win0_4.index ⟨(i 0).val / 512 * 64 + (i 1).val / 256, htN⟩ (1 : Fin 2) * 256 ≤ (i 1).val
      ∧ (i 1).val < win0_4.index ⟨(i 0).val / 512 * 64 + (i 1).val / 256, htN⟩ (1 : Fin 2) * 256 + 256
    rw [e41]
    show ((i 0).val / 512 * 64 + (i 1).val / 256) % 64 * 256 ≤ (i 1).val
      ∧ (i 1).val < ((i 0).val / 512 * 64 + (i 1).val / 256) % 64 * 256 + 256
    omega

/-- THE OUTPUT MATRIX after the region: the layer on the arrays as the region finds them. -/
theorem final (c : Dev nD) : (dats m 0 c).arrAt 4 cfg0.N
    = Cert.QLinear.rows (V m c main_v1) (V m c main_arg1) (V m c main_arg2) (V m c main_arg3) :=
  (dats m 0 c).arrAt_eq_of_cover 4 _ (fun t _ => flushed_eq m c t) covered

end Cert.KernelIdeal.Blocks

end
-- ==== Proof.KernelRun.lean ====
/-
  The idealized kernel program's run, with its result named.

  Before the region the program re-lays the input's tokens as a matrix of 8192 rows (and changes its format, which
  does nothing to exact values); the region fills the 8192 × 16384 output matrix with the layer's values on that
  matrix (the blocks module); after the region the program re-lays the output matrix by batch and position. Re-laying
  rows as tokens on both sides of the layer is the layer on tokens (`Cert.QLinear.reshape_rows`), so the program's
  result is `Cert.QLinear.tokens` of its four argument arrays, which it leaves unchanged.
-/
import proofs.«126928_j283467842173_1_alg».proof.Proof.Blocks
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The token matrix the region finds is the input re-laid as 8192 rows. -/
theorem token_matrix (c : Dev nD) :
    (V m c main_v1 : S8192x4096.Idx → EReal)
      = shapeCast S8192x4096 (m ((c : Thread nD τ).loc main_arg0)) shapeCasts_S4x2048x4096_S8192x4096 := by
  show StableHlo.after hostOps0 (fun b => m (c, b)) (Proc.devRef .tc main_v1) = _
  after_results
  rfl

/-- The program's result: the output matrix re-laid by batch and position, which is the layer on the tokens. -/
theorem result_eq (c : Dev nD) :
    (Pipeline.afterTail₀ cfgs (dats m) 0 (V0 m) [hostOps1] c main_v3 : S4x2048x16384.Idx → EReal)
      = Cert.QLinear.tokens (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  show shapeCast S4x2048x16384 (Pipeline.withArrays spec0 c (V0 m c) (fun w => (dats m 0 c).arrAt w cfg0.N)
      (Proc.devRef .tc (Pipeline.arrRef spec0 4))) shapeCasts_S8192x16384_S4x2048x16384 = _
  rw [(Pipeline.withArrays_arr spec0 launch0.win.arr_inj c (V0 m c) (fun w => (dats m 0 c).arrAt w cfg0.N) 4).trans
      (Blocks.final m c),
    token_matrix, V_main_arg1, V_main_arg2, V_main_arg3]
  exact Cert.QLinear.reshape_rows _ _ _ _ _ _

/-- Every weakly fair execution of the idealized kernel program terminates with its result at the layer on the
    tokens of its argument arrays, and those arrays unchanged. -/
theorem run : θ_run defs (onTc (τ := τ) (main (F := Ideal))) ⟨m, fun _ => 0, ρ⟩ fun r => ∀ c : Dev nD,
      r.2.mem ((c.tc : Thread nD τ).loc main_v3)
        = Cert.QLinear.tokens (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.lean ====
/-
  A quantised linear layer: the kernel and its reference agree on the extended reals.

  The layer's weight is stored as integers `q[n, k]` with one scale `s[n]` per output channel; with the integer read as
  the real it denotes, the output for token `(a, p)` on channel `n` is `(Σ_k x[a, p, k] · (q[n, k] · s[n])) + b[n]`
  (`Cert.QLinear.tokens`, in the specification module).

  The reference computes exactly that, operation by operation (the reference module). The kernel re-lays the tokens
  as a matrix of 8192 rows, fills the 8192 × 16384 output matrix block by block — each grid point contracts 512 rows
  against 256 dequantised channels over all 4096 features and adds those channels' biases (the payload module), and
  the 16 × 64 blocks tile the matrix (the blocks module) — and re-lays the matrix by batch and position (the run
  module). Re-laying on both sides of the layer changes nothing, so both programs end with the same array: the same
  sum of the same products, entry by entry. No entry is asked to be finite, and the precondition is never opened.

  The three programs' frames are the generated ones (the reference's is its run with the result dropped), and the
  idealized kernel is the kernel's own text read at exact values, so nothing is owed for it.
-/
import proofs.«126928_j283467842173_1_alg».proof.Defs
import proofs.«126928_j283467842173_1_alg».proof.Proof.Gen.Kernel
import proofs.«126928_j283467842173_1_alg».proof.Proof.Gen.Kernel.Skeleton
import proofs.«126928_j283467842173_1_alg».proof.Proof.Gen.Kernel.Launch
import proofs.«126928_j283467842173_1_alg».proof.Proof.Gen.Kernel.Points
import proofs.«126928_j283467842173_1_alg».proof.Proof.Gen.Kernel.Frame
import proofs.«126928_j283467842173_1_alg».proof.Proof.Gen.KernelIdeal
import proofs.«126928_j283467842173_1_alg».proof.Proof.Gen.KernelIdeal.Skeleton
import proofs.«126928_j283467842173_1_alg».proof.Proof.Gen.KernelIdeal.Launch
import proofs.«126928_j283467842173_1_alg».proof.Proof.Gen.KernelIdeal.Points
import proofs.«126928_j283467842173_1_alg».proof.Proof.Gen.KernelIdeal.Frame
import proofs.«126928_j283467842173_1_alg».proof.Proof.Gen.ReferenceIdeal
import proofs.«126928_j283467842173_1_alg».proof.Proof.Gen.ReferenceIdeal.Run
import proofs.«126928_j283467842173_1_alg».proof.Proof.Gen.ReferenceIdeal.Read
import proofs.«126928_j283467842173_1_alg».proof.Proof.Gen.Pre_finite_inputs
import proofs.«126928_j283467842173_1_alg».proof.Proof.RefTokens
import proofs.«126928_j283467842173_1_alg».proof.Proof.KernelRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact values. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten to read it at exact values. -/
theorem preserves : Cert.preserves_Kernel_KernelIdeal := trivial

/-- From memories that agree on the four arguments both programs end with the layer on the tokens of those arguments:
    the kernel by its run, the reference by its run read one operation at a time. -/
theorem algebraic : Cert.algebraic_KernelIdeal_ReferenceIdeal := by
  intro m ρ m' ρ' _ hagree
  refine ⟨fun c => Cert.QLinear.tokens
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.reference_eq_tokens,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
